-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x2 : Shape := ⟨2, ![8388608, 2]⟩
abbrev S8388608 : Shape := ⟨1, ![8388608]⟩
abbrev S262144 : Shape := ⟨1, ![262144]⟩
abbrev S_ : Shape := ⟨0, ![]⟩

class Facts : Prop where
  bcast_S_S8388608x2 : S_.BroadcastsInDim S8388608x2 (![] : Fin 0 → Fin S8388608x2.rank)
  reducesTo_S8388608x2_S_d0_1 : S8388608x2.ReducesTo [0, 1] S_
  h_S_ : 0 < S_.numel
  bcast_S_S8388608 : S_.BroadcastsInDim S8388608 (![] : Fin 0 → Fin S8388608.rank)
  reducesTo_S8388608_S_d0 : S8388608.ReducesTo [0] S_
  bcast_S_S262144 : S_.BroadcastsInDim S262144 (![] : Fin 0 → Fin S262144.rank)
  reducesTo_S262144_S_d0 : S262144.ReducesTo [0] S_

variable [Facts]

def fn_part1 {F : FTy → Type} [FloatOps F] (main_v13 : IVec S_ 1) (main_v16 : IVec S262144 1) : IVec S_ 1 :=
  let main_c_5 : IVec S_ 1 := constantI S_ 1 1#1
  let main_v17 : IVec S_ 1 := (fun x v => Host.reduce IntOp.andi x v reducesTo_S262144_S_d0 h_S_) main_v16 main_c_5
  let main_v18 : IVec S_ 1 := andi main_v13 main_v17
  main_v18

def fn {F : FTy → Type} [FloatOps F] (main_arg0 : FVec F S8388608x2 .f32) (main_arg1 : FVec F S8388608 .f32) (main_arg2 : FVec F S262144 .f32) (main_arg3 : FVec F S262144 .f32) : IVec S_ 1 :=
  let main_v0 : FVec F S8388608x2 .f32 := Host.absf main_arg0
  let main_cst : FVec F S_ .f32 := constant S_ .f32 0x7F800000#32
  let main_v1 : FVec F S8388608x2 .f32 := broadcastInDim S8388608x2 ![] bcast_S_S8388608x2 main_cst
  let main_v2 : IVec S8388608x2 1 := cmpf .olt main_v0 main_v1
  let main_c : IVec S_ 1 := constantI S_ 1 1#1
  let main_v3 : IVec S_ 1 := (fun x v => Host.reduce IntOp.andi x v reducesTo_S8388608x2_S_d0_1 h_S_) main_v2 main_c
  let main_v4 : FVec F S8388608 .f32 := Host.absf main_arg1
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  let main_v9 : FVec F S262144 .f32 := Host.absf main_arg2
  let main_cst_2 : FVec F S_ .f32 := constant S_ .f32 0x7F800000#32
  let main_v10 : FVec F S262144 .f32 := broadcastInDim S262144 ![] bcast_S_S262144 main_cst_2
  let main_v11 : IVec S262144 1 := cmpf .olt main_v9 main_v10
  let main_c_3 : IVec S_ 1 := constantI S_ 1 1#1
  let main_v12 : IVec S_ 1 := (fun x v => Host.reduce IntOp.andi x v reducesTo_S262144_S_d0 h_S_) main_v11 main_c_3
  let main_v13 : IVec S_ 1 := andi main_v8 main_v12
  let main_v14 : FVec F S262144 .f32 := Host.absf main_arg3
  let main_cst_4 : FVec F S_ .f32 := constant S_ .f32 0x7F800000#32
  let main_v15 : FVec F S262144 .f32 := broadcastInDim S262144 ![] bcast_S_S262144 main_cst_4
  let main_v16 : IVec S262144 1 := cmpf .olt main_v14 main_v15
  fn_part1 (F := F) main_v13 main_v16
-- ==== Kernel.lean ====
abbrev S8388608x2 : Shape := ⟨2, ![8388608, 2]⟩
abbrev S8388608 : Shape := ⟨1, ![8388608]⟩
abbrev S262144 : Shape := ⟨1, ![262144]⟩
abbrev S2x8388608 : Shape := ⟨2, ![2, 8388608]⟩
abbrev S2x65536 : Shape := ⟨2, ![2, 65536]⟩
abbrev S65536 : Shape := ⟨1, ![65536]⟩
abbrev S1x65536 : Shape := ⟨2, ![1, 65536]⟩
abbrev S_ : Shape := ⟨0, ![]⟩
abbrev S8388608x1 : Shape := ⟨2, ![8388608, 1]⟩
abbrev S131072 : Shape := ⟨1, ![131072]⟩

abbrev nBuf : Space → Nat
  | .hbm => 25
  | .vmem => 12
  | .smem => 0
  | _ => 0

abbrev bufTy : (tb : Table) → Fin (tcTables nBuf tb) → BufTy
  | .hbm, ⟨0, _⟩ => ⟨S8388608x2, .f32⟩
  | .hbm, ⟨1, _⟩ => ⟨S8388608, .f32⟩
  | .hbm, ⟨2, _⟩ => ⟨S262144, .f32⟩
  | .hbm, ⟨3, _⟩ => ⟨S262144, .f32⟩
  | .hbm, ⟨4, _⟩ => ⟨S2x8388608, .f32⟩
  | .hbm, ⟨5, _⟩ => ⟨S8388608, .i32⟩
  | .hbm, ⟨6, _⟩ => ⟨S_, .i32⟩
  | .hbm, ⟨7, _⟩ => ⟨S8388608, .i32⟩
  | .hbm, ⟨8, _⟩ => ⟨S8388608, .i1⟩
  | .hbm, ⟨9, _⟩ => ⟨S_, .i32⟩
  | .hbm, ⟨10, _⟩ => ⟨S8388608, .i32⟩
  | .hbm, ⟨11, _⟩ => ⟨S8388608, .i32⟩
  | .hbm, ⟨12, _⟩ => ⟨S8388608, .i32⟩
  | .hbm, ⟨13, _⟩ => ⟨S8388608x1, .i32⟩
  | .hbm, ⟨14, _⟩ => ⟨S8388608, .f32⟩
  | .hbm, ⟨15, _⟩ => ⟨S_, .i32⟩
  | .hbm, ⟨16, _⟩ => ⟨S8388608, .i32⟩
  | .hbm, ⟨17, _⟩ => ⟨S8388608, .i1⟩
  | .hbm, ⟨18, _⟩ => ⟨S_, .i32⟩
  | .hbm, ⟨19, _⟩ => ⟨S8388608, .i32⟩
  | .hbm, ⟨20, _⟩ => ⟨S8388608, .i32⟩
  | .hbm, ⟨21, _⟩ => ⟨S8388608, .i32⟩
  | .hbm, ⟨22, _⟩ => ⟨S8388608x1, .i32⟩
  | .hbm, ⟨23, _⟩ => ⟨S8388608, .f32⟩
  | .hbm, ⟨24, _⟩ => ⟨S8388608, .f32⟩
  | .local _ .vmem, ⟨0, _⟩ => ⟨S2x65536, .f32⟩
  | .local _ .vmem, ⟨1, _⟩ => ⟨S2x65536, .f32⟩
  | .local _ .vmem, ⟨2, _⟩ => ⟨S65536, .i32⟩
  | .local _ .vmem, ⟨3, _⟩ => ⟨S65536, .i32⟩
  | .local _ .vmem, ⟨4, _⟩ => ⟨S131072, .f32⟩
  | .local _ .vmem, ⟨5, _⟩ => ⟨S131072, .f32⟩
  | .local _ .vmem, ⟨6, _⟩ => ⟨S131072, .f32⟩
  | .local _ .vmem, ⟨7, _⟩ => ⟨S131072, .f32⟩
  | .local _ .vmem, ⟨8, _⟩ => ⟨S131072, .f32⟩
  | .local _ .vmem, ⟨9, _⟩ => ⟨S131072, .f32⟩
  | .local _ .vmem, ⟨10, _⟩ => ⟨S131072, .f32⟩
  | .local _ .vmem, ⟨11, _⟩ => ⟨S131072, .f32⟩
  | _, _ => ⟨S8388608x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S65536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![64], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S131072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S131072 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S131072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S131072 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  transposes_S8388608x2_S2x8388608_1_0 : S8388608x2.Transposes [1, 0] S2x8388608
  inb_S2x65536_S2x65536_0_0 : ∀ a, (![0, 0] : Fin 2 → Nat) a + S2x65536.size a ≤ S2x65536.size a
  h_S2x65536 : 0 < S2x65536.numel
  shapeCasts_S2x65536_S2x65536 : S2x65536.ShapeCasts S2x65536
  slices_S2x65536_o0_0_S1x65536 : S2x65536.Slices ![0, 0] S1x65536
  shapeCasts_S1x65536_S65536 : S1x65536.ShapeCasts S65536
  slices_S2x65536_o1_0_S1x65536 : S2x65536.Slices ![1, 0] S1x65536
  inb_S65536_S65536_0 : ∀ a, (![0] : Fin 1 → Nat) a + S65536.size a ≤ S65536.size a
  h_S65536 : 0 < S65536.numel
  bcast_S_S8388608 : S_.BroadcastsInDim S8388608 (![] : Fin 0 → Fin S8388608.rank)
  bcast_S8388608_S8388608x1_0 : S8388608.BroadcastsInDim S8388608x1 (![0] : Fin 1 → Fin S8388608x1.rank)
  inb_S131072_S131072_0 : ∀ a, (![0] : Fin 1 → Nat) a + S131072.size a ≤ S131072.size a
  h_S131072 : 0 < S131072.numel
  shapeCasts_S131072_S131072 : S131072.ShapeCasts S131072
  gather_S262144_S8388608x1_S8388608_n_0_n_n_0_1_1_wf : GatherDims.WF S262144 S8388608x1 S8388608 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x65536.size a ≤ S2x8388608.size a
  hwx0_0 : ∀ i : grid0.Coords, EltTy.bits .f32 = 32 ∨ (Rect.block (s := S2x8388608) S2x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S65536.size a ≤ S8388608.size a
  hwx0_1 : ∀ i : grid0.Coords, EltTy.bits .i32 = 32 ∨ (Rect.block (s := S8388608) S65536.size (cc0_transform_1 i) (hinb0_1 i)).WholeWords (EltTy.packing .i32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S131072.size a ≤ S8388608.size a
  hwx1_0 : ∀ i : grid1.Coords, EltTy.bits .f32 = 32 ∨ (Rect.block (s := S8388608) S131072.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S131072.size a ≤ S8388608.size a
  hwx1_1 : ∀ i : grid1.Coords, EltTy.bits .f32 = 32 ∨ (Rect.block (s := S8388608) S131072.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S131072.size a ≤ S8388608.size a
  hwx1_2 : ∀ i : grid1.Coords, EltTy.bits .f32 = 32 ∨ (Rect.block (s := S8388608) S131072.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S131072.size a ≤ S8388608.size a
  hwx1_3 : ∀ i : grid1.Coords, EltTy.bits .f32 = 32 ∨ (Rect.block (s := S8388608) S131072.size (cc1_transform_3 i) (hinb1_3 i)).WholeWords (EltTy.packing .f32)

variable [Facts₀]

def gather_S262144_S8388608x1_S8388608_n_0_n_n_0_1_1 : GatherDims S262144 S8388608x1 S8388608 where
  offsetDims := []
  collapsedSliceDims := [0]
  operandBatchingDims := []
  startIndicesBatchingDims := []
  startIndexMap := [0]
  indexVectorDim := 1
  sliceSizes := ![1]
  wf := gather_S262144_S8388608x1_S8388608_n_0_n_n_0_1_1_wf

abbrev win0_0 : Pipeline.Window sig grid0 :=
  Pipeline.Window.ofSpec (Memref.whole main_v0) S2x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S65536.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v8) S131072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S131072.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S131072.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S131072.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8388608x2 : Shape := ⟨2, ![8388608, 2]⟩
abbrev S8388608 : Shape := ⟨1, ![8388608]⟩
abbrev S262144 : Shape := ⟨1, ![262144]⟩
abbrev S_ : Shape := ⟨0, ![]⟩
abbrev S8388608x1 : Shape := ⟨2, ![8388608, 1]⟩

abbrev nBuf : Space → Nat
  | .hbm => 253
  | .vmem => 0
  | .smem => 0
  | _ => 0

abbrev hbmTy0_0 (i : Nat) : BufTy := match i % 128 with
  | 0 => ⟨S8388608x2, .f32⟩
  | 1 => ⟨S8388608, .f32⟩
  | 2 => ⟨S262144, .f32⟩
  | 3 => ⟨S262144, .f32⟩
  | 4 => ⟨S_, .f32⟩
  | 5 => ⟨S8388608x2, .f32⟩
  | 6 => ⟨S8388608x2, .f32⟩
  | 7 => ⟨S8388608x2, .f32⟩
  | 8 => ⟨S_, .f32⟩
  | 9 => ⟨S8388608x2, .f32⟩
  | 10 => ⟨S8388608x2, .f32⟩
  | 11 => ⟨S8388608x1, .f32⟩
  | 12 => ⟨S8388608, .f32⟩
  | 13 => ⟨S_, .f32⟩
  | 14 => ⟨S8388608, .f32⟩
  | 15 => ⟨S8388608, .f32⟩
  | 16 => ⟨S_, .f32⟩
  | 17 => ⟨S8388608, .f32⟩
  | 18 => ⟨S8388608, .f32⟩
  | 19 => ⟨S8388608x1, .f32⟩
  | 20 => ⟨S8388608, .f32⟩
  | 21 => ⟨S_, .f32⟩
  | 22 => ⟨S8388608, .f32⟩
  | 23 => ⟨S8388608, .f32⟩
  | 24 => ⟨S_, .f32⟩
  | 25 => ⟨S8388608, .f32⟩
  | 26 => ⟨S8388608, .f32⟩
  | 27 => ⟨S_, .f32⟩
  | 28 => ⟨S8388608, .f32⟩
  | 29 => ⟨S8388608, .f32⟩
  | 30 => ⟨S8388608, .i32⟩
  | 31 => ⟨S_, .i32⟩
  | 32 => ⟨S_, .i32⟩
  | 33 => ⟨S_, .i32⟩
  | 34 => ⟨S8388608, .i32⟩
  | 35 => ⟨S8388608, .i32⟩
  | 36 => ⟨S_, .i32⟩
  | 37 => ⟨S8388608, .i32⟩
  | 38 => ⟨S8388608, .i32⟩
  | 39 => ⟨S_, .f32⟩
  | 40 => ⟨S8388608, .f32⟩
  | 41 => ⟨S8388608, .f32⟩
  | 42 => ⟨S8388608, .i32⟩
  | 43 => ⟨S_, .i32⟩
  | 44 => ⟨S_, .i32⟩
  | 45 => ⟨S_, .i32⟩
  | 46 => ⟨S8388608, .i32⟩
  | 47 => ⟨S8388608, .i32⟩
  | 48 => ⟨S_, .i32⟩
  | 49 => ⟨S8388608, .i32⟩
  | 50 => ⟨S8388608, .i32⟩
  | 51 => ⟨S_, .i32⟩
  | 52 => ⟨S8388608, .i32⟩
  | 53 => ⟨S_, .i32⟩
  | 54 => ⟨S8388608, .i32⟩
  | 55 => ⟨S8388608, .i32⟩
  | 56 => ⟨S_, .i32⟩
  | 57 => ⟨S8388608, .i32⟩
  | 58 => ⟨S8388608, .i32⟩
  | 59 => ⟨S_, .i32⟩
  | 60 => ⟨S8388608, .i32⟩
  | 61 => ⟨S8388608, .i32⟩
  | 62 => ⟨S8388608, .i32⟩
  | 63 => ⟨S_, .i32⟩
  | 64 => ⟨S8388608, .i32⟩
  | 65 => ⟨S8388608, .i32⟩
  | 66 => ⟨S_, .i32⟩
  | 67 => ⟨S8388608, .i32⟩
  | 68 => ⟨S8388608, .i32⟩
  | 69 => ⟨S_, .i32⟩
  | 70 => ⟨S8388608, .i32⟩
  | 71 => ⟨S8388608, .i32⟩
  | 72 => ⟨S8388608, .i32⟩
  | 73 => ⟨S_, .i32⟩
  | 74 => ⟨S8388608, .i32⟩
  | 75 => ⟨S8388608, .i32⟩
  | 76 => ⟨S_, .i32⟩
  | 77 => ⟨S8388608, .i32⟩
  | 78 => ⟨S8388608, .i32⟩
  | 79 => ⟨S_, .i32⟩
  | 80 => ⟨S8388608, .i32⟩
  | 81 => ⟨S8388608, .i32⟩
  | 82 => ⟨S8388608, .i32⟩
  | 83 => ⟨S_, .i32⟩
  | 84 => ⟨S8388608, .i32⟩
  | 85 => ⟨S8388608, .i32⟩
  | 86 => ⟨S_, .i32⟩
  | 87 => ⟨S8388608, .i32⟩
  | 88 => ⟨S8388608, .i32⟩
  | 89 => ⟨S_, .i32⟩
  | 90 => ⟨S8388608, .i32⟩
  | 91 => ⟨S8388608, .i32⟩
  | 92 => ⟨S8388608, .i32⟩
  | 93 => ⟨S_, .i32⟩
  | 94 => ⟨S8388608, .i32⟩
  | 95 => ⟨S8388608, .i32⟩
  | 96 => ⟨S_, .i32⟩
  | 97 => ⟨S8388608, .i32⟩
  | 98 => ⟨S8388608, .i32⟩
  | 99 => ⟨S_, .i32⟩
  | 100 => ⟨S8388608, .i32⟩
  | 101 => ⟨S8388608, .i32⟩
  | 102 => ⟨S8388608, .i32⟩
  | 103 => ⟨S_, .i32⟩
  | 104 => ⟨S8388608, .i32⟩
  | 105 => ⟨S8388608, .i32⟩
  | 106 => ⟨S_, .i32⟩
  | 107 => ⟨S8388608, .i32⟩
  | 108 => ⟨S8388608, .i32⟩
  | 109 => ⟨S_, .i32⟩
  | 110 => ⟨S8388608, .i32⟩
  | 111 => ⟨S8388608, .i32⟩
  | 112 => ⟨S8388608, .i32⟩
  | 113 => ⟨S_, .i32⟩
  | 114 => ⟨S8388608, .i32⟩
  | 115 => ⟨S8388608, .i32⟩
  | 116 => ⟨S_, .i32⟩
  | 117 => ⟨S8388608, .i32⟩
  | 118 => ⟨S8388608, .i32⟩
  | 119 => ⟨S_, .i32⟩
  | 120 => ⟨S8388608, .i32⟩
  | 121 => ⟨S8388608, .i32⟩
  | 122 => ⟨S8388608, .i32⟩
  | 123 => ⟨S_, .i32⟩
  | 124 => ⟨S8388608, .i32⟩
  | 125 => ⟨S8388608, .i32⟩
  | 126 => ⟨S_, .i32⟩
  | 127 => ⟨S8388608, .i32⟩
  | _ => ⟨S8388608x2, .f32⟩

abbrev hbmTy0_1 (i : Nat) : BufTy := match i % 128 with
  | 0 => ⟨S8388608, .i32⟩
  | 1 => ⟨S_, .i32⟩
  | 2 => ⟨S8388608, .i32⟩
  | 3 => ⟨S8388608, .i32⟩
  | 4 => ⟨S8388608, .i32⟩
  | 5 => ⟨S_, .i32⟩
  | 6 => ⟨S8388608, .i32⟩
  | 7 => ⟨S8388608, .i32⟩
  | 8 => ⟨S_, .i32⟩
  | 9 => ⟨S8388608, .i32⟩
  | 10 => ⟨S8388608, .i32⟩
  | 11 => ⟨S_, .i32⟩
  | 12 => ⟨S8388608, .i32⟩
  | 13 => ⟨S8388608, .i32⟩
  | 14 => ⟨S8388608, .i32⟩
  | 15 => ⟨S_, .i32⟩
  | 16 => ⟨S8388608, .i32⟩
  | 17 => ⟨S8388608, .i32⟩
  | 18 => ⟨S_, .i32⟩
  | 19 => ⟨S8388608, .i32⟩
  | 20 => ⟨S8388608, .i32⟩
  | 21 => ⟨S_, .i32⟩
  | 22 => ⟨S8388608, .i32⟩
  | 23 => ⟨S8388608, .i32⟩
  | 24 => ⟨S8388608, .i32⟩
  | 25 => ⟨S_, .i32⟩
  | 26 => ⟨S8388608, .i32⟩
  | 27 => ⟨S8388608, .i32⟩
  | 28 => ⟨S_, .i32⟩
  | 29 => ⟨S8388608, .i32⟩
  | 30 => ⟨S8388608, .i32⟩
  | 31 => ⟨S_, .i32⟩
  | 32 => ⟨S8388608, .i32⟩
  | 33 => ⟨S8388608, .i32⟩
  | 34 => ⟨S8388608, .i32⟩
  | 35 => ⟨S_, .i32⟩
  | 36 => ⟨S8388608, .i32⟩
  | 37 => ⟨S8388608, .i32⟩
  | 38 => ⟨S_, .i32⟩
  | 39 => ⟨S8388608, .i32⟩
  | 40 => ⟨S8388608, .i32⟩
  | 41 => ⟨S_, .i32⟩
  | 42 => ⟨S8388608, .i32⟩
  | 43 => ⟨S8388608, .i32⟩
  | 44 => ⟨S8388608, .i32⟩
  | 45 => ⟨S_, .i32⟩
  | 46 => ⟨S8388608, .i32⟩
  | 47 => ⟨S8388608, .i32⟩
  | 48 => ⟨S_, .i32⟩
  | 49 => ⟨S8388608, .i32⟩
  | 50 => ⟨S8388608, .i32⟩
  | 51 => ⟨S_, .i32⟩
  | 52 => ⟨S8388608, .i32⟩
  | 53 => ⟨S8388608, .i32⟩
  | 54 => ⟨S8388608, .i32⟩
  | 55 => ⟨S_, .i32⟩
  | 56 => ⟨S8388608, .i32⟩
  | 57 => ⟨S8388608, .i32⟩
  | 58 => ⟨S_, .i32⟩
  | 59 => ⟨S8388608, .i32⟩
  | 60 => ⟨S8388608, .i32⟩
  | 61 => ⟨S_, .i32⟩
  | 62 => ⟨S8388608, .i32⟩
  | 63 => ⟨S8388608, .i32⟩
  | 64 => ⟨S8388608, .i32⟩
  | 65 => ⟨S_, .i32⟩
  | 66 => ⟨S8388608, .i32⟩
  | 67 => ⟨S8388608, .i32⟩
  | 68 => ⟨S_, .i32⟩
  | 69 => ⟨S8388608, .i32⟩
  | 70 => ⟨S8388608, .i32⟩
  | 71 => ⟨S_, .i32⟩
  | 72 => ⟨S8388608, .i32⟩
  | 73 => ⟨S8388608, .i32⟩
  | 74 => ⟨S8388608, .i32⟩
  | 75 => ⟨S_, .i32⟩
  | 76 => ⟨S8388608, .i32⟩
  | 77 => ⟨S8388608, .i32⟩
  | 78 => ⟨S_, .i32⟩
  | 79 => ⟨S8388608, .i32⟩
  | 80 => ⟨S8388608, .i32⟩
  | 81 => ⟨S_, .i32⟩
  | 82 => ⟨S8388608, .i32⟩
  | 83 => ⟨S8388608, .i32⟩
  | 84 => ⟨S8388608, .i32⟩
  | 85 => ⟨S_, .i32⟩
  | 86 => ⟨S8388608, .i32⟩
  | 87 => ⟨S8388608, .i32⟩
  | 88 => ⟨S_, .i32⟩
  | 89 => ⟨S8388608, .i32⟩
  | 90 => ⟨S8388608, .i32⟩
  | 91 => ⟨S_, .i32⟩
  | 92 => ⟨S8388608, .i32⟩
  | 93 => ⟨S8388608, .i32⟩
  | 94 => ⟨S8388608, .i32⟩
  | 95 => ⟨S_, .i32⟩
  | 96 => ⟨S8388608, .i32⟩
  | 97 => ⟨S8388608, .i32⟩
  | 98 => ⟨S_, .i32⟩
  | 99 => ⟨S8388608, .i32⟩
  | 100 => ⟨S8388608, .i32⟩
  | 101 => ⟨S_, .i32⟩
  | 102 => ⟨S8388608, .i32⟩
  | 103 => ⟨S8388608, .i32⟩
  | 104 => ⟨S8388608, .i32⟩
  | 105 => ⟨S_, .i32⟩
  | 106 => ⟨S8388608, .i32⟩
  | 107 => ⟨S8388608, .i1⟩
  | 108 => ⟨S_, .i32⟩
  | 109 => ⟨S8388608, .i32⟩
  | 110 => ⟨S8388608, .i32⟩
  | 111 => ⟨S8388608, .i32⟩
  | 112 => ⟨S8388608x1, .i32⟩
  | 113 => ⟨S8388608, .f32⟩
  | 114 => ⟨S8388608, .f32⟩
  | 115 => ⟨S_, .i32⟩
  | 116 => ⟨S8388608, .i32⟩
  | 117 => ⟨S8388608, .i1⟩
  | 118 => ⟨S_, .i32⟩
  | 119 => ⟨S8388608, .i32⟩
  | 120 => ⟨S8388608, .i32⟩
  | 121 => ⟨S8388608, .i32⟩
  | 122 => ⟨S8388608x1, .i32⟩
  | 123 => ⟨S8388608, .f32⟩
  | 124 => ⟨S8388608, .f32⟩
  | _ => ⟨S8388608x2, .f32⟩

abbrev hbmTy (i : Nat) : BufTy := match i / 128 with
  | 0 => hbmTy0_0 i
  | 1 => hbmTy0_1 i
  | _ => ⟨S8388608x2, .f32⟩

abbrev bufTy : (tb : Table) → Fin (tcTables nBuf tb) → BufTy
  | .hbm, ⟨i, _⟩ => hbmTy i
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_c_6 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v20 : Ref sig .tc := ⟨.hbm, 38, rfl⟩
abbrev main_cst_7 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_8 : Ref sig .tc := ⟨.hbm, 43, rfl⟩
abbrev main_c_9 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v24 : Ref sig .tc := ⟨.hbm, 50, rfl⟩
abbrev main_c_10 : Ref sig .tc := ⟨.hbm, 51, rfl⟩
abbrev main_v25 : Ref sig .tc := ⟨.hbm, 52, rfl⟩
abbrev main_c_11 : Ref sig .tc := ⟨.hbm, 53, rfl⟩
abbrev main_v26 : Ref sig .tc := ⟨.hbm, 54, rfl⟩
abbrev main_v27 : Ref sig .tc := ⟨.hbm, 55, rfl⟩
abbrev main_c_12 : Ref sig .tc := ⟨.hbm, 56, rfl⟩
abbrev main_v28 : Ref sig .tc := ⟨.hbm, 57, rfl⟩
abbrev main_v29 : Ref sig .tc := ⟨.hbm, 58, rfl⟩
abbrev main_c_13 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_14 : Ref sig .tc := ⟨.hbm, 63, rfl⟩
abbrev main_v33 : Ref sig .tc := ⟨.hbm, 64, rfl⟩
abbrev main_v34 : Ref sig .tc := ⟨.hbm, 65, rfl⟩
abbrev main_c_15 : Ref sig .tc := ⟨.hbm, 66, rfl⟩
abbrev main_v35 : Ref sig .tc := ⟨.hbm, 67, rfl⟩
abbrev main_v36 : Ref sig .tc := ⟨.hbm, 68, rfl⟩
abbrev main_c_16 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_c_17 : Ref sig .tc := ⟨.hbm, 73, rfl⟩
abbrev main_v40 : Ref sig .tc := ⟨.hbm, 74, rfl⟩
abbrev main_v41 : Ref sig .tc := ⟨.hbm, 75, rfl⟩
abbrev main_c_18 : Ref sig .tc := ⟨.hbm, 76, rfl⟩
abbrev main_v42 : Ref sig .tc := ⟨.hbm, 77, rfl⟩
abbrev main_v43 : Ref sig .tc := ⟨.hbm, 78, rfl⟩
abbrev main_c_19 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_20 : Ref sig .tc := ⟨.hbm, 83, rfl⟩
abbrev main_v47 : Ref sig .tc := ⟨.hbm, 84, rfl⟩
abbrev main_v48 : Ref sig .tc := ⟨.hbm, 85, rfl⟩
abbrev main_c_21 : Ref sig .tc := ⟨.hbm, 86, rfl⟩
abbrev main_v49 : Ref sig .tc := ⟨.hbm, 87, rfl⟩
abbrev main_v50 : Ref sig .tc := ⟨.hbm, 88, rfl⟩
abbrev main_c_22 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_c_23 : Ref sig .tc := ⟨.hbm, 93, rfl⟩
abbrev main_v54 : Ref sig .tc := ⟨.hbm, 94, rfl⟩
abbrev main_v55 : Ref sig .tc := ⟨.hbm, 95, rfl⟩
abbrev main_c_24 : Ref sig .tc := ⟨.hbm, 96, rfl⟩
abbrev main_v56 : Ref sig .tc := ⟨.hbm, 97, rfl⟩
abbrev main_v57 : Ref sig .tc := ⟨.hbm, 98, rfl⟩
abbrev main_c_25 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_c_26 : Ref sig .tc := ⟨.hbm, 103, rfl⟩
abbrev main_v61 : Ref sig .tc := ⟨.hbm, 104, rfl⟩
abbrev main_v62 : Ref sig .tc := ⟨.hbm, 105, rfl⟩
abbrev main_c_27 : Ref sig .tc := ⟨.hbm, 106, rfl⟩
abbrev main_v63 : Ref sig .tc := ⟨.hbm, 107, rfl⟩
abbrev main_v64 : Ref sig .tc := ⟨.hbm, 108, rfl⟩
abbrev main_c_28 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_c_29 : Ref sig .tc := ⟨.hbm, 113, rfl⟩
abbrev main_v68 : Ref sig .tc := ⟨.hbm, 114, rfl⟩
abbrev main_v69 : Ref sig .tc := ⟨.hbm, 115, rfl⟩
abbrev main_c_30 : Ref sig .tc := ⟨.hbm, 116, rfl⟩
abbrev main_v70 : Ref sig .tc := ⟨.hbm, 117, rfl⟩
abbrev main_v71 : Ref sig .tc := ⟨.hbm, 118, rfl⟩
abbrev main_c_31 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_c_32 : Ref sig .tc := ⟨.hbm, 123, rfl⟩
abbrev main_v75 : Ref sig .tc := ⟨.hbm, 124, rfl⟩
abbrev main_v76 : Ref sig .tc := ⟨.hbm, 125, rfl⟩
abbrev main_c_33 : Ref sig .tc := ⟨.hbm, 126, rfl⟩
abbrev main_v77 : Ref sig .tc := ⟨.hbm, 127, rfl⟩
abbrev main_v78 : Ref sig .tc := ⟨.hbm, 128, rfl⟩
abbrev main_c_34 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_c_35 : Ref sig .tc := ⟨.hbm, 133, rfl⟩
abbrev main_v82 : Ref sig .tc := ⟨.hbm, 134, rfl⟩
abbrev main_v83 : Ref sig .tc := ⟨.hbm, 135, rfl⟩
abbrev main_c_36 : Ref sig .tc := ⟨.hbm, 136, rfl⟩
abbrev main_v84 : Ref sig .tc := ⟨.hbm, 137, rfl⟩
abbrev main_v85 : Ref sig .tc := ⟨.hbm, 138, rfl⟩
abbrev main_c_37 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_c_38 : Ref sig .tc := ⟨.hbm, 143, rfl⟩
abbrev main_v89 : Ref sig .tc := ⟨.hbm, 144, rfl⟩
abbrev main_v90 : Ref sig .tc := ⟨.hbm, 145, rfl⟩
abbrev main_c_39 : Ref sig .tc := ⟨.hbm, 146, rfl⟩
abbrev main_v91 : Ref sig .tc := ⟨.hbm, 147, rfl⟩
abbrev main_v92 : Ref sig .tc := ⟨.hbm, 148, rfl⟩
abbrev main_c_40 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_c_41 : Ref sig .tc := ⟨.hbm, 153, rfl⟩
abbrev main_v96 : Ref sig .tc := ⟨.hbm, 154, rfl⟩
abbrev main_v97 : Ref sig .tc := ⟨.hbm, 155, rfl⟩
abbrev main_c_42 : Ref sig .tc := ⟨.hbm, 156, rfl⟩
abbrev main_v98 : Ref sig .tc := ⟨.hbm, 157, rfl⟩
abbrev main_v99 : Ref sig .tc := ⟨.hbm, 158, rfl⟩
abbrev main_c_43 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_c_44 : Ref sig .tc := ⟨.hbm, 163, rfl⟩
abbrev main_v103 : Ref sig .tc := ⟨.hbm, 164, rfl⟩
abbrev main_v104 : Ref sig .tc := ⟨.hbm, 165, rfl⟩
abbrev main_c_45 : Ref sig .tc := ⟨.hbm, 166, rfl⟩
abbrev main_v105 : Ref sig .tc := ⟨.hbm, 167, rfl⟩
abbrev main_v106 : Ref sig .tc := ⟨.hbm, 168, rfl⟩
abbrev main_c_46 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_c_47 : Ref sig .tc := ⟨.hbm, 173, rfl⟩
abbrev main_v110 : Ref sig .tc := ⟨.hbm, 174, rfl⟩
abbrev main_v111 : Ref sig .tc := ⟨.hbm, 175, rfl⟩
abbrev main_c_48 : Ref sig .tc := ⟨.hbm, 176, rfl⟩
abbrev main_v112 : Ref sig .tc := ⟨.hbm, 177, rfl⟩
abbrev main_v113 : Ref sig .tc := ⟨.hbm, 178, rfl⟩
abbrev main_c_49 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_c_50 : Ref sig .tc := ⟨.hbm, 183, rfl⟩
abbrev main_v117 : Ref sig .tc := ⟨.hbm, 184, rfl⟩
abbrev main_v118 : Ref sig .tc := ⟨.hbm, 185, rfl⟩
abbrev main_c_51 : Ref sig .tc := ⟨.hbm, 186, rfl⟩
abbrev main_v119 : Ref sig .tc := ⟨.hbm, 187, rfl⟩
abbrev main_v120 : Ref sig .tc := ⟨.hbm, 188, rfl⟩
abbrev main_c_52 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_c_53 : Ref sig .tc := ⟨.hbm, 193, rfl⟩
abbrev main_v124 : Ref sig .tc := ⟨.hbm, 194, rfl⟩
abbrev main_v125 : Ref sig .tc := ⟨.hbm, 195, rfl⟩
abbrev main_c_54 : Ref sig .tc := ⟨.hbm, 196, rfl⟩
abbrev main_v126 : Ref sig .tc := ⟨.hbm, 197, rfl⟩
abbrev main_v127 : Ref sig .tc := ⟨.hbm, 198, rfl⟩
abbrev main_c_55 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_c_56 : Ref sig .tc := ⟨.hbm, 203, rfl⟩
abbrev main_v131 : Ref sig .tc := ⟨.hbm, 204, rfl⟩
abbrev main_v132 : Ref sig .tc := ⟨.hbm, 205, rfl⟩
abbrev main_c_57 : Ref sig .tc := ⟨.hbm, 206, rfl⟩
abbrev main_v133 : Ref sig .tc := ⟨.hbm, 207, rfl⟩
abbrev main_v134 : Ref sig .tc := ⟨.hbm, 208, rfl⟩
abbrev main_c_58 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_c_59 : Ref sig .tc := ⟨.hbm, 213, rfl⟩
abbrev main_v138 : Ref sig .tc := ⟨.hbm, 214, rfl⟩
abbrev main_v139 : Ref sig .tc := ⟨.hbm, 215, rfl⟩
abbrev main_c_60 : Ref sig .tc := ⟨.hbm, 216, rfl⟩
abbrev main_v140 : Ref sig .tc := ⟨.hbm, 217, rfl⟩
abbrev main_v141 : Ref sig .tc := ⟨.hbm, 218, rfl⟩
abbrev main_c_61 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_c_62 : Ref sig .tc := ⟨.hbm, 223, rfl⟩
abbrev main_v145 : Ref sig .tc := ⟨.hbm, 224, rfl⟩
abbrev main_v146 : Ref sig .tc := ⟨.hbm, 225, rfl⟩
abbrev main_c_63 : Ref sig .tc := ⟨.hbm, 226, rfl⟩
abbrev main_v147 : Ref sig .tc := ⟨.hbm, 227, rfl⟩
abbrev main_v148 : Ref sig .tc := ⟨.hbm, 228, rfl⟩
abbrev main_c_64 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_c_65 : Ref sig .tc := ⟨.hbm, 233, rfl⟩
abbrev main_v152 : Ref sig .tc := ⟨.hbm, 234, rfl⟩
abbrev main_v153 : Ref sig .tc := ⟨.hbm, 235, rfl⟩
abbrev main_c_66 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_c_67 : Ref sig .tc := ⟨.hbm, 243, rfl⟩
abbrev main_v160 : Ref sig .tc := ⟨.hbm, 244, rfl⟩
abbrev main_v161 : Ref sig .tc := ⟨.hbm, 245, rfl⟩
abbrev main_c_68 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩

abbrev nD : Nat := 1
abbrev τ : Topo := Topo.v7x

variable {F : FTy → Type} [FloatOps F]

class Facts₀ : Prop where
  bcast_S_S8388608x2 : S_.BroadcastsInDim S8388608x2 (![] : Fin 0 → Fin S8388608x2.rank)
  slices_S8388608x2_S8388608x1_0_0 : S8388608x2.Slices ![0, 0] S8388608x1
  shapeCasts_S8388608x1_S8388608 : S8388608x1.ShapeCasts S8388608
  bcast_S_S8388608 : S_.BroadcastsInDim S8388608 (![] : Fin 0 → Fin S8388608.rank)
  slices_S8388608x2_S8388608x1_0_1 : S8388608x2.Slices ![0, 1] S8388608x1
  bcast_S8388608_S8388608x1_0 : S8388608.BroadcastsInDim S8388608x1 (![0] : Fin 1 → Fin S8388608x1.rank)
  gather_S262144_S8388608x1_S8388608_n_0_n_n_0_1_1_wf : GatherDims.WF S262144 S8388608x1 S8388608 [] [0] [] [0] [] 1 ![1]

variable [Facts₀]

def gather_S262144_S8388608x1_S8388608_n_0_n_n_0_1_1 : GatherDims S262144 S8388608x1 S8388608 where
  offsetDims := []
  collapsedSliceDims := [0]
  operandBatchingDims := []
  startIndicesBatchingDims := []
  startIndexMap := [0]
  indexVectorDim := 1
  sliceSizes := ![1]
  wf := gather_S262144_S8388608x1_S8388608_n_0_n_n_0_1_1_wf

class Facts : Prop extends Facts₀ where

variable [Facts]
-- ==== Proof.QuadCell.lean ====
/-
  The quadtree cell of a point, as arithmetic.

  A point (a, b) of the plane is first snapped to seven decimals, c = roundeven(x · 10⁷) / 10⁷ on each
  coordinate, then placed on a 512 × 512 grid over the rectangle [-180, 180) × [-90, 90):
  ix = clamp(⌊(c_a + 180) / 360 · 512⌋, 0, 511), iy = clamp(⌊(c_b + 90) / 180 · 512⌋, 0, 511), the floor being
  the float-to-integer conversion. The cell's number is the Z-order (Morton) interleaving of the nine bits of
  ix and iy: bit b of ix goes to bit 2b, bit b of iy to bit 2b + 1.

  Everything is stated over any float instance F; the arithmetic unit that shifts (the vector unit in a
  kernel, the host in a plain program) is a parameter, and for shift amounts below the word width the
  two units agree, so the interleaving does not depend on it.
-/
import Idealize.ShloMosaic.PureOps
import Idealize.ShloMosaic.PureOps.Ideal

noncomputable section

namespace Cert.QuadCell

open Idealize.ShloMosaic

variable {F : FTy → Type} [FloatOps F]

/-- The float 10⁷ (exactly representable: 10⁷ = 2⁷ · 5⁷ and 5⁷ < 2²⁴). -/
abbrev tenPow7 : BitVec 32 := 0x4B189680#32
/-- The float 512. -/
abbrev gridSide : BitVec 32 := 0x44000000#32

/-- A coordinate snapped to seven decimals, the quotient taken by the vector unit's division. -/
def snap (x : F .f32) : F .f32 :=
  FloatOps.divf (FloatOps.roundeven (FloatOps.mulf x (FloatOps.ofBits .f32 tenPow7))) (FloatOps.ofBits .f32 tenPow7)

/-- The same, rounding and quotient taken by the host's operations. -/
def snapHost (x : F .f32) : F .f32 :=
  FloatOps.hostDivf (FloatOps.hostUnary .roundeven (FloatOps.mulf x (FloatOps.ofBits .f32 tenPow7))) (FloatOps.ofBits .f32 tenPow7)

/-- The grid coordinate of a snapped coordinate `c` on an axis that starts at the float `lo` and has
    extent the float `ext`: (c − lo) / ext · 512, converted to an integer and clamped to [0, 511]. -/
def axisCell (lo ext : BitVec 32) (c : F .f32) : BitVec 32 :=
  IntOp.minsi 511#32 (IntOp.maxsi 0#32 (FloatOps.fptosi 32
    (FloatOps.mulf (FloatOps.divf (FloatOps.subf c (FloatOps.ofBits .f32 lo)) (FloatOps.ofBits .f32 ext)) (FloatOps.ofBits .f32 gridSide))))

/-- The same with the host's quotient. -/
def axisCellHost (lo ext : BitVec 32) (c : F .f32) : BitVec 32 :=
  IntOp.minsi 511#32 (IntOp.maxsi 0#32 (FloatOps.fptosi 32
    (FloatOps.mulf (FloatOps.hostDivf (FloatOps.subf c (FloatOps.ofBits .f32 lo)) (FloatOps.ofBits .f32 ext)) (FloatOps.ofBits .f32 gridSide))))

/-- Bit `k` of `v`, moved to position `j`: ((v >> k) & 1) << j on the unit `u`. -/
def bitTo (u : ArithUnit) (v k j : BitVec 32) : BitVec 32 :=
  IntOp.shli u (IntOp.andi (IntOp.shrsi u v k) 1#32) j

/-- The Z-order number of the cell (ix, iy): starting from 0, for b = 0 … 8 in turn, bit b of ix is or-ed
    in at position 2b and bit b of iy at position 2b + 1. -/
def zorder (u : ArithUnit) (ix iy : BitVec 32) : BitVec 32 :=
  (List.range 9).foldl (fun acc b =>
    IntOp.ori (IntOp.ori acc (bitTo u ix (BitVec.ofNat 32 b) (BitVec.ofNat 32 (2 * b))))
      (bitTo u iy (BitVec.ofNat 32 b) (BitVec.ofNat 32 (2 * b + 1)))) 0#32

/-- The cell number of the point (a, b) as a kernel's vector unit computes it. -/
def cellOf (a b : F .f32) : BitVec 32 :=
  zorder .vector (axisCell 0xC3340000#32 0x43B40000#32 (snap a)) (axisCell 0xC2B40000#32 0x43340000#32 (snap b))

/-- The cell number of the point (a, b) as the host computes it. -/
def cellOfHost (a b : F .f32) : BitVec 32 :=
  zorder .host (axisCellHost 0xC3340000#32 0x43B40000#32 (snapHost a)) (axisCellHost 0xC2B40000#32 0x43340000#32 (snapHost b))

/-- Below the word width a shift is the same on every unit, so moving a bit is. -/
theorem bitTo_unit (u u' : ArithUnit) (v k j : BitVec 32) (hk : k.toNat < 32) (hj : j.toNat < 32) :
    bitTo u v k j = bitTo u' v k j := by
  simp only [bitTo, IntOp.shli, IntOp.shrsi, if_pos hk, if_pos hj]

/-- The Z-order number does not depend on the unit: every shift amount is at most 17. -/
theorem zorder_unit (u u' : ArithUnit) (ix iy : BitVec 32) : zorder u ix iy = zorder u' ix iy := by
  unfold zorder
  refine List.foldl_ext _ _ _ (fun acc b hb => ?_)
  have hb9 : b < 9 := List.mem_range.mp hb
  have h1 : (BitVec.ofNat 32 b).toNat < 32 := by rw [BitVec.toNat_ofNat]; omega
  have h2 : (BitVec.ofNat 32 (2 * b)).toNat < 32 := by rw [BitVec.toNat_ofNat]; omega
  have h3 : (BitVec.ofNat 32 (2 * b + 1)).toNat < 32 := by rw [BitVec.toNat_ofNat]; omega
  rw [bitTo_unit u u' ix _ _ h1 h2, bitTo_unit u u' iy _ _ h1 h3]

/-- On the extended reals the host's rounding and quotient are the vector unit's (both are the exact
    operations), so the two spellings of the cell number are one function. -/
theorem cellOfHost_eq (a b : Ideal .f32) : cellOfHost a b = cellOf a b := by
  unfold cellOfHost cellOf
  rw [zorder_unit .host .vector]
  rfl

end Cert.QuadCell

end
-- ==== Proof.BlockCell.lean ====
/-
  What the first kernel region's body stores, entry by entry.

  The body loads a 2 × 65536 block (row 0 the first coordinates of 65536 points, row 1 the second
  coordinates), snaps every entry to seven decimals, takes each row to its grid coordinate, and stores the
  Z-order number of the pair. Entry p of the stored vector is therefore the cell number of the point whose
  coordinates are entries (0, p) and (1, p) of the block.
-/
import proofs.«169504_j3762391351408_2_alg».proof.Proof.Gen.KernelIdeal.Skeleton
import proofs.«169504_j3762391351408_2_alg».proof.Proof.QuadCell
import Idealize.ShloMosaic.Lib.ValueIdx
import Idealize.ShloMosaic.Lib.Pipeline.Value

set_option maxRecDepth 16384

noncomputable section

namespace Cert.KernelIdeal.BlockCell

open Idealize.ShloMosaic Idealize.ShloMosaic.ValueIdx
open Cert.KernelIdeal Cert.KernelIdeal.Gen Cert.QuadCell

variable {F : FTy → Type} [FloatOps F]

/-- Row r of a 2 × 65536 block, sliced out and flattened, read at p is the block at (r, p). -/
theorem row_apply (r : Nat) (hr : r < 2) (y : FVec F S2x65536 .f32) (h1 : S2x65536.Slices ![r, 0] S1x65536)
    (h2 : S1x65536.ShapeCasts S65536) (p : Fin 65536) :
    shapeCast S65536 (extractStridedSlice S1x65536 ![r, 0] y h1) h2 (ix1 p) = y (ix2 (⟨r, hr⟩ : Fin 2) p) := by
  rw [shapeCast_dropUnit_apply (n := 1) ![65536] _ h2 (ix1 p)]
  refine extractStridedSlice_apply _ y h1 _ (ix2 (⟨r, hr⟩ : Fin 2) p) (fun a => ?_)
  match a with
  | ⟨0, _⟩ => show r = r + 0; rfl
  | ⟨1, _⟩ => show p.val = 0 + p.val; exact (Nat.zero_add _).symm

/-- The snapped block, entry by entry. -/
theorem snapped_apply (x0 : Vec F S2x65536 .f32) (j : S2x65536.Idx) : k0_pay2 x0 j = snap (x0 j) := by
  unfold k0_pay2
  simp only [shapeCast_self]
  rfl

/-- Row 0 goes to the grid coordinate on the axis from −180 of extent 360. -/
theorem first_apply (x0 : Vec F S2x65536 .f32) (p : Fin 65536) :
    k0_pay3 x0 (ix1 p) = axisCell 0xC3340000#32 0x43B40000#32 (snap (x0 (ix2 0 p))) := by
  unfold k0_pay3
  show IntOp.minsi 511#32 (IntOp.maxsi 0#32 (FloatOps.fptosi 32 (FloatOps.mulf (FloatOps.divf (FloatOps.subf
      (shapeCast S65536 (extractStridedSlice S1x65536 ![0, 0] (k0_pay2 x0) slices_S2x65536_o0_0_S1x65536) shapeCasts_S1x65536_S65536 (ix1 p))
      (FloatOps.ofBits .f32 0xC3340000#32)) (FloatOps.ofBits .f32 0x43B40000#32)) (FloatOps.ofBits .f32 0x44000000#32)))) = _
  rw [row_apply 0 (by decide) (k0_pay2 x0) slices_S2x65536_o0_0_S1x65536 shapeCasts_S1x65536_S65536 p, snapped_apply]
  rfl

/-- Row 1 goes to the grid coordinate on the axis from −90 of extent 180. -/
theorem second_apply (x0 : Vec F S2x65536 .f32) (p : Fin 65536) :
    k0_pay4 x0 (ix1 p) = axisCell 0xC2B40000#32 0x43340000#32 (snap (x0 (ix2 1 p))) := by
  unfold k0_pay4
  show IntOp.minsi 511#32 (IntOp.maxsi 0#32 (FloatOps.fptosi 32 (FloatOps.mulf (FloatOps.divf (FloatOps.subf
      (shapeCast S65536 (extractStridedSlice S1x65536 ![1, 0] (k0_pay2 x0) slices_S2x65536_o1_0_S1x65536) shapeCasts_S1x65536_S65536 (ix1 p))
      (FloatOps.ofBits .f32 0xC2B40000#32)) (FloatOps.ofBits .f32 0x43340000#32)) (FloatOps.ofBits .f32 0x44000000#32)))) = _
  rw [row_apply 1 (by decide) (k0_pay2 x0) slices_S2x65536_o1_0_S1x65536 shapeCasts_S1x65536_S65536 p, snapped_apply]
  rfl

/-- The eighteen shift-mask-shift-or steps of the body are the Z-order number of the two grid coordinates. -/
theorem interleaved_apply (x0 : Vec F S2x65536 .f32) (q : S65536.Idx) :
    k0_pay1 (k0_pay3 x0) (k0_pay4 x0) (k0_pay7 (k0_pay3 x0) (k0_pay4 x0) (k0_pay6 (k0_pay3 x0) (k0_pay4 x0) (k0_pay5 x0))) q
      = zorder .vector (k0_pay3 x0 q) (k0_pay4 x0 q) := by
  unfold k0_pay1 k0_pay7 k0_pay6 k0_pay5
  rfl

/-- Entry p of the stored vector is the cell number of the point (block (0, p), block (1, p)). -/
theorem stored_apply (x0 : Vec F S2x65536 .f32) (p : Fin 65536) :
    k0_pay1 (k0_pay3 x0) (k0_pay4 x0) (k0_pay7 (k0_pay3 x0) (k0_pay4 x0) (k0_pay6 (k0_pay3 x0) (k0_pay4 x0) (k0_pay5 x0))) (ix1 p)
      = cellOf (x0 (ix2 0 p)) (x0 (ix2 1 p)) := by
  rw [interleaved_apply, first_apply, second_apply]
  rfl

end Cert.KernelIdeal.BlockCell

end
-- ==== Proof.CellRegion.lean ====
/-
  The first kernel region, read as one array.

  The region walks 128 grid points over the transposed coordinates, a 2 × 8388608 array: at point t it
  holds columns 65536·t … 65536·t + 65535 (both rows) and writes entries 65536·t … 65536·t + 65535 of the
  cell-number array. Entry p of what it writes is the cell number of the point whose two coordinates are
  the block's entries (0, p) and (1, p), that is, the array's entries (0, n) and (1, n) with
  n = 65536·t + p. The blocks tile the 8388608 entries, so after the region entry n of the output is the cell
  number of the point (a(0, n), a(1, n)).
-/
import proofs.«169504_j3762391351408_2_alg».proof.Proof.Gen.KernelIdeal.Frame
import proofs.«169504_j3762391351408_2_alg».proof.Proof.BlockCell
import Idealize.ShloMosaic.Lib.Pipeline.Value

set_option maxRecDepth 16384

noncomputable section

namespace Cert.KernelIdeal.CellRegion

open Idealize.ShloMosaic Idealize.ShloMosaic.TcCoe Idealize.ShloMosaic.ValueIdx Idealize.SL.Sem
open Idealize.ShloMosaic.Pipeline (Dat)
open Cert.KernelIdeal Cert.KernelIdeal.Gen Cert.QuadCell

variable {F : FTy → Type} [FloatOps F]
variable (V : (c : Dev nD) → (b : Ref sig .tc) → Buf (Elt F) ((c : Thread nD τ).loc b))

theorem origin1 : (![0] : Fin 1 → Nat) = fun _ => 0 := funext fun a => by fin_cases a; rfl
theorem origin2 : (![0, 0] : Fin 2 → Nat) = fun _ => 0 := funext fun a => by fin_cases a <;> rfl

/-- The cell number of every point, the points given as the columns of a 2 × 8388608 array. -/
abbrev cells (a : S2x8388608.Idx → Elt F .f32) : S8388608.Idx → Elt F .i32 :=
  fun i => cellOf (a (ix2 (0 : Fin 2) (⟨(i 0).val, (i 0).isLt⟩ : Fin 8388608))) (a (ix2 (1 : Fin 2) (⟨(i 0).val, (i 0).isLt⟩ : Fin 8388608)))

/-- The input block at point t is at rows 0, 1 and block column t; the output block is block t. -/
theorem block_index : ∀ t : Fin cfg0.N, win0_0.index t (0 : Fin 2) = 0 ∧ win0_0.index t (1 : Fin 2) = t.val
    ∧ win0_1.index t (0 : Fin 1) = t.val :=
  (by decide +kernel : ∀ t : Fin grid0.N, _)

/-- What point t writes back is block t of the cell numbers of the region's input array. -/
theorem flushed_eq (c : Dev nD) (t : Fin cfg0.N) :
    (dat0 V c).flushed 1 t = ((cfg0.win 1).blk t).view.read (Elt F) (cells (V c main_v0)) := by
  show (cfg0.win 1).cut (grid0.coords t) ((dat0 V c).after 1 t) = _
  rw [after0_1]
  unfold out0_1
  rw [View.canon_unit_zero origin1]
  simp only [View.ld_unit_zero (S := S2x65536) origin2]
  obtain ⟨e0, e1, e2⟩ := block_index t
  funext j
  obtain ⟨p, rfl⟩ : ∃ p : Fin 65536, j = ix1 p := ⟨j 0, eq_ix1 j⟩
  refine (BlockCell.stored_apply (F := F) (iblk0 V c 0 t) p).trans ?_
  show cellOf (V c main_v0 (((cfg0.win 0).blk t).view.emb (ix2 (0 : Fin 2) p))) (V c main_v0 (((cfg0.win 0).blk t).view.emb (ix2 (1 : Fin 2) p)))
    = cells (V c main_v0) (((cfg0.win 1).blk t).view.emb (ix1 p))
  have h0 : ((cfg0.win 0).blk t).view.emb (ix2 (0 : Fin 2) p)
      = ix2 (0 : Fin 2) (⟨((((cfg0.win 1).blk t).view.emb (ix1 p)) 0).val, ((((cfg0.win 1).blk t).view.emb (ix1 p)) 0).isLt⟩ : Fin 8388608) := by
    funext a; apply Fin.ext
    match a with
    | ⟨0, _⟩ => show win0_0.index t (0 : Fin 2) * 2 + 1 * 0 = 0; omega
    | ⟨1, _⟩ => show win0_0.index t (1 : Fin 2) * 65536 + 1 * p.val = win0_1.index t (0 : Fin 1) * 65536 + 1 * p.val; omega
  have h1 : ((cfg0.win 0).blk t).view.emb (ix2 (1 : Fin 2) p)
      = ix2 (1 : Fin 2) (⟨((((cfg0.win 1).blk t).view.emb (ix1 p)) 0).val, ((((cfg0.win 1).blk t).view.emb (ix1 p)) 0).isLt⟩ : Fin 8388608) := by
    funext a; apply Fin.ext
    match a with
    | ⟨0, _⟩ => show win0_0.index t (0 : Fin 2) * 2 + 1 * 1 = 1; omega
    | ⟨1, _⟩ => show win0_0.index t (1 : Fin 2) * 65536 + 1 * p.val = win0_1.index t (0 : Fin 1) * 65536 + 1 * p.val; omega
  rw [h0, h1]

/-- An entry is in point t's block iff it lies in [65536·t, 65536·t + 65536). -/
theorem mem_block (t : Fin cfg0.N) (i : S8388608.Idx) :
    i ∈ ((cfg0.win 1).blk t).view.set ↔ ∀ a : Fin 1, win0_1.index t a * S65536.size a ≤ (i a).val ∧ (i a).val < win0_1.index t a * S65536.size a + S65536.size a := by
  show i ∈ ((View.whole main_v1).slice (win0_1.rect t)).set ↔ _
  rw [View.set_slice_whole, Rect.mem_set_unit]
  exact Iff.rfl

/-- Entry i is written back by point i / 65536. -/
theorem covered (i : S8388608.Idx) : ∃ t : Fin cfg0.N, (cfg0.win 1).flush t = true ∧ i ∈ ((cfg0.win 1).blk t).view.set := by
  have hi : (i 0).val < 8388608 := (i 0).isLt
  have hN : cfg0.N = 128 := N_0
  let t : Fin cfg0.N := ⟨(i 0).val / 65536, by rw [hN]; omega⟩
  obtain ⟨-, -, e2⟩ := block_index t
  have e2' : win0_1.index t (0 : Fin 1) = (i 0).val / 65536 := e2
  refine ⟨t, flush0_1 t, ?_⟩
  rw [mem_block]
  intro a
  match a with
  | ⟨0, _⟩ => show win0_1.index t (0 : Fin 1) * 65536 ≤ (i 0).val ∧ (i 0).val < win0_1.index t (0 : Fin 1) * 65536 + 65536; omega

/-- After the region the output array holds every point's cell number. -/
theorem final (c : Dev nD) : (dat0 V c).arrAt 1 cfg0.N = cells (V c main_v0) :=
  (dat0 V c).arrAt_eq_of_cover 1 _ (fun t _ => flushed_eq V c t) covered

end Cert.KernelIdeal.CellRegion

end
-- ==== Proof.Combine.lean ====
/-
  The second kernel region, read as one array.

  The region walks 64 grid points; at point t every window holds entries 131072·t … 131072·t + 131071 of its
  array, and the body stores, entry by entry, (gathered weight) · x + (gathered bias). The blocks tile the
  8388608 entries, so after the region the output array is that expression of the three input arrays as the
  region found them, index by index.
-/
import proofs.«169504_j3762391351408_2_alg».proof.Proof.Gen.KernelIdeal.Frame
import Idealize.ShloMosaic.Lib.Pipeline.Value

set_option maxRecDepth 16384

noncomputable section

namespace Cert.KernelIdeal.Combine

open Idealize.ShloMosaic Idealize.ShloMosaic.TcCoe Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

theorem origin1 : (![0] : Fin 1 → Nat) = fun _ => 0 := funext fun a => by fin_cases a; rfl

/-- w · x + b, entry by entry. -/
abbrev affine (w b x : S8388608.Idx → Elt F .f32) : S8388608.Idx → Elt F .f32 :=
  fun i => FloatOps.addf (FloatOps.mulf (w i) (x i)) (b i)

/-- The body's stored value is the product of its first and third loads plus the second (the two recasts
    are to the same shape). -/
theorem stored_eq (x0 x2 x1 : Vec F S131072 .f32) : k1_pay1 x0 x2 x1 = addf (mulf x0 x2) x1 := by
  unfold k1_pay1
  simp only [shapeCast_self]

/-- Every window's block index at point t is t. -/
theorem block_index : ∀ t : Fin cfg1.N, win1_0.index t (0 : Fin 1) = t.val ∧ win1_1.index t (0 : Fin 1) = t.val
    ∧ win1_2.index t (0 : Fin 1) = t.val ∧ win1_3.index t (0 : Fin 1) = t.val :=
  (by decide +kernel : ∀ t : Fin grid1.N, _)

/-- What point t writes back is block t of the affine expression of the region's input arrays. -/
theorem flushed_eq (c : Dev nD) (t : Fin cfg1.N) :
    (dat1 V c).flushed 3 t = ((cfg1.win 3).blk t).view.read (Elt F) (affine (V c main_v8) (V c main_v15) (V c main_arg1)) := by
  show (cfg1.win 3).cut (grid1.coords t) ((dat1 V c).after 3 t) = _
  rw [after1_3]
  unfold out1_3
  rw [View.canon_unit_zero origin1]
  simp only [View.ld_unit_zero (S := S131072) origin1]
  rw [stored_eq]
  obtain ⟨e0, e1, e2, e3⟩ := block_index t
  funext j
  show FloatOps.addf (FloatOps.mulf (V c main_v8 (((cfg1.win 0).blk t).view.emb j)) (V c main_arg1 (((cfg1.win 2).blk t).view.emb j)))
      (V c main_v15 (((cfg1.win 1).blk t).view.emb j))
    = FloatOps.addf (FloatOps.mulf (V c main_v8 (((cfg1.win 3).blk t).view.emb j)) (V c main_arg1 (((cfg1.win 3).blk t).view.emb j)))
      (V c main_v15 (((cfg1.win 3).blk t).view.emb j))
  have h0 : ((cfg1.win 0).blk t).view.emb j = ((cfg1.win 3).blk t).view.emb j := by
    funext a; apply Fin.ext
    match a with
    | ⟨0, _⟩ => show win1_0.index t (0 : Fin 1) * 131072 + 1 * (j 0).val = win1_3.index t (0 : Fin 1) * 131072 + 1 * (j 0).val; omega
  have h1 : ((cfg1.win 1).blk t).view.emb j = ((cfg1.win 3).blk t).view.emb j := by
    funext a; apply Fin.ext
    match a with
    | ⟨0, _⟩ => show win1_1.index t (0 : Fin 1) * 131072 + 1 * (j 0).val = win1_3.index t (0 : Fin 1) * 131072 + 1 * (j 0).val; omega
  have h2 : ((cfg1.win 2).blk t).view.emb j = ((cfg1.win 3).blk t).view.emb j := by
    funext a; apply Fin.ext
    match a with
    | ⟨0, _⟩ => show win1_2.index t (0 : Fin 1) * 131072 + 1 * (j 0).val = win1_3.index t (0 : Fin 1) * 131072 + 1 * (j 0).val; omega
  rw [h0, h1, h2]

/-- An entry is in point t's block iff it lies in [131072·t, 131072·t + 131072). -/
theorem mem_block (t : Fin cfg1.N) (i : S8388608.Idx) :
    i ∈ ((cfg1.win 3).blk t).view.set ↔ ∀ a : Fin 1, win1_3.index t a * S131072.size a ≤ (i a).val ∧ (i a).val < win1_3.index t a * S131072.size a + S131072.size a := by
  show i ∈ ((View.whole main_v16).slice (win1_3.rect t)).set ↔ _
  rw [View.set_slice_whole, Rect.mem_set_unit]
  exact Iff.rfl

/-- Entry i is written back by point i / 131072. -/
theorem covered (i : S8388608.Idx) : ∃ t : Fin cfg1.N, (cfg1.win 3).flush t = true ∧ i ∈ ((cfg1.win 3).blk t).view.set := by
  have hi : (i 0).val < 8388608 := (i 0).isLt
  have hN : cfg1.N = 64 := N_1
  let t : Fin cfg1.N := ⟨(i 0).val / 131072, by rw [hN]; omega⟩
  obtain ⟨-, -, -, e3⟩ := block_index t
  have e3' : win1_3.index t (0 : Fin 1) = (i 0).val / 131072 := e3
  refine ⟨t, flush1_3 t, ?_⟩
  rw [mem_block]
  intro a
  match a with
  | ⟨0, _⟩ => show win1_3.index t (0 : Fin 1) * 131072 ≤ (i 0).val ∧ (i 0).val < win1_3.index t (0 : Fin 1) * 131072 + 131072; omega

/-- After the region the output array is weight · x + bias of the gathered arrays, entry by entry. -/
theorem final (c : Dev nD) :
    (dat1 V c).arrAt 3 cfg1.N = affine (V c main_v8) (V c main_v15) (V c main_arg1) :=
  (dat1 V c).arrAt_eq_of_cover 3 _ (fun t _ => flushed_eq V c t) covered

end Cert.KernelIdeal.Combine

end
-- ==== Proof.Lookup.lean ====
/-
  The table lookup and the affine combination shared by both programs.

  Given the cell number of every point, both programs wrap a negative number by the table length 262144,
  read the weight table and the bias table at the wrapped numbers (the host's gather, which clamps what is
  still out of range), and return weight · x + bias entry by entry. They apply the same operations in the
  same order, so this stretch is carried as one function of the cell numbers, x and the two tables, and is
  never opened.
-/
import proofs.«169504_j3762391351408_2_alg».proof.KernelIdeal
import proofs.«169504_j3762391351408_2_alg».proof.Proof.Gen.KernelIdeal

noncomputable section

namespace Cert.KernelIdeal.Lookup

open Idealize.ShloMosaic
open Cert.KernelIdeal Cert.KernelIdeal.Gen

variable {F : FTy → Type} [FloatOps F]

/-- A negative cell number moved up by the table length, the others kept, as an index column. -/
def wrapped (cells : IVec S8388608 32) : IVec S8388608x1 32 :=
  broadcastInDim S8388608x1 ![0] bcast_S8388608_S8388608x1_0
    (select (cmpi .slt cells (broadcastInDim S8388608 ![] bcast_S_S8388608 (constantI S_ 32 0#32)))
      (addi cells (broadcastInDim S8388608 ![] bcast_S_S8388608 (constantI S_ 32 262144#32))) cells)

/-- One table read at every point's wrapped cell number. -/
def lookup (cells : IVec S8388608 32) (table : S262144.Idx → Elt F .f32) : S8388608.Idx → Elt F .f32 :=
  Host.gather gather_S262144_S8388608x1_S8388608_n_0_n_n_0_1_1 table (wrapped cells)

/-- weight[cell] · x + bias[cell], entry by entry. -/
def pooled (cells : IVec S8388608 32) (x : S8388608.Idx → Elt F .f32) (weight bias : S262144.Idx → Elt F .f32) :
    S8388608.Idx → Elt F .f32 :=
  fun i => FloatOps.addf (FloatOps.mulf (lookup cells weight i) (x i)) (lookup cells bias i)

end Cert.KernelIdeal.Lookup

end
-- ==== Proof.KernelResult.lean ====
/-
  The kernel program's run, with what the result buffer holds.

  The program is a transpose on the host, the first region (cell numbers), eighteen host operations (wrap the
  cell numbers, gather the weight and the bias table), and the second region (weight · x + bias). Its run
  ends with every buffer at the contents obtained by folding those four stretches over the launch memory.
  Reading that fold at the result buffer, from the last stretch back to the first: the second region leaves
  weight · x + bias of the gathered arrays; the gathered arrays are the tables read at the wrapped cell
  numbers; the cell numbers are what the first region leaves, the cell number of every column of the
  transposed coordinates; x and the tables are the launch arguments, which nothing writes.
-/
import proofs.«169504_j3762391351408_2_alg».proof.Proof.Gen.KernelIdeal.Frame
import proofs.«169504_j3762391351408_2_alg».proof.Proof.CellRegion
import proofs.«169504_j3762391351408_2_alg».proof.Proof.Combine
import proofs.«169504_j3762391351408_2_alg».proof.Proof.Lookup
import Idealize.ShloMosaic.Lib.StableHlo.Run

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every unscoped buffer of
    every core ends at the fold of the four stretches over the launch memory. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The fold read at the result buffer -/

/-- The first stretch writes the transposed coordinates. -/
theorem transposed (c : Dev nD) :
    V1 m ρ c main_v0 = transpose S2x8388608 [1, 0] (m ((c : Thread nD τ).loc main_arg0)) transposes_S8388608x2_S2x8388608_1_0 := by
  show StableHlo.after hostOps0 (W0 m ρ c) (Proc.devRef .tc main_v0) = _
  after_results

/-- No stretch up to the second region's entry writes the launch argument x. -/
theorem kept_x (c : Dev nD) : V3 m ρ c main_arg1 = m ((c : Thread nD τ).loc main_arg1) := by
  show StableHlo.after hostOps1 (W2 m ρ c) (Proc.devRef .tc main_arg1) = _
  after_results
  rw [W2_of_ne m ρ c main_arg1 (by decide)]
  show StableHlo.after hostOps0 (W0 m ρ c) (Proc.devRef .tc main_arg1) = _
  after_results

/-- Nor the weight table, up to the host stretch that gathers from it. -/
theorem kept_weight (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results

/-- Nor the bias table. -/
theorem kept_bias (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results

/-- The second stretch leaves, in the second region's first window, the weight table read at the wrapped cell
    numbers the first region wrote. -/
theorem gathered_weight (c : Dev nD) :
    V3 m ρ c main_v8 = Lookup.lookup (W2 m ρ c (Proc.devRef .tc main_v1)) (W2 m ρ c (Proc.devRef .tc main_arg2)) := by
  show StableHlo.after hostOps1 (W2 m ρ c) (Proc.devRef .tc main_v8) = _
  after_results
  rfl

/-- And in its second window the bias table read at the same numbers. -/
theorem gathered_bias (c : Dev nD) :
    V3 m ρ c main_v15 = Lookup.lookup (W2 m ρ c (Proc.devRef .tc main_v1)) (W2 m ρ c (Proc.devRef .tc main_arg3)) := by
  show StableHlo.after hostOps1 (W2 m ρ c) (Proc.devRef .tc main_v15) = _
  after_results
  rfl

/-- What the first region leaves in the cell-number buffer. -/
theorem cell_numbers (c : Dev nD) :
    W2 m ρ c (Proc.devRef .tc main_v1) = CellRegion.cells (V1 m ρ c main_v0) :=
  (W2_arr m ρ c 1).trans (CellRegion.final (V1 m ρ) c)

/-- THE RESULT: the result buffer ends at weight[cell] · x + bias[cell], the cells those of the columns of the
    transposed coordinates. -/
theorem result_eq (c : Dev nD) :
    W4 m ρ c (Proc.devRef .tc main_v16)
      = Lookup.pooled (CellRegion.cells (transpose S2x8388608 [1, 0] (m ((c : Thread nD τ).loc main_arg0)) transposes_S8388608x2_S2x8388608_1_0))
          (m ((c : Thread nD τ).loc main_arg1)) (m ((c : Thread nD τ).loc main_arg2)) (m ((c : Thread nD τ).loc main_arg3)) := by
  refine (W4_arr m ρ c 3).trans ?_
  rw [Combine.final (V3 m ρ) c, gathered_weight, gathered_bias, kept_x, cell_numbers, transposed, kept_weight, kept_bias]
  rfl

end Cert.KernelIdeal.Result

end
-- ==== Proof.RefCells.lean ====
/-
  The reference's cell numbers, entry by entry.

  The reference snaps the whole N × 2 coordinate array, takes column 0 and column 1 to their grid coordinates,
  and interleaves the bits in eighteen host operations. Read at point n, its cell-number array is the cell
  number of the point (x(n, 0), x(n, 1)), in the host's spelling of the operations.
-/
import proofs.«169504_j3762391351408_2_alg».proof.Proof.Gen.ReferenceIdeal.Read
import proofs.«169504_j3762391351408_2_alg».proof.Proof.QuadCell
import Idealize.ShloMosaic.Lib.ValueIdx

set_option maxRecDepth 16384

noncomputable section

namespace Cert.ReferenceIdeal.Cells

open Idealize.ShloMosaic Idealize.ShloMosaic.ValueIdx
open Cert.ReferenceIdeal Cert.ReferenceIdeal.Read Cert.QuadCell

variable {F : FTy → Type} [FloatOps F]

/-- The snapped coordinate array, entry by entry. -/
theorem snapped_apply (x0 : (⟨S8388608x2, .f32⟩ : BufTy).Contents (Elt F)) (j : S8388608x2.Idx) :
    val_main_v4 (F := F) x0 j = snapHost (x0 j) := by
  simp only [
    val_main_cst_apply, val_main_v0_apply, val_main_v1_apply, val_main_v2_apply, val_main_cst_0_apply,
    val_main_v3_apply, val_main_v4_apply]
  rfl

/-- Column 0, flattened, read at n is the array at (n, 0). -/
theorem col0 (n : Fin 8388608) : idx_main_v5 (idx_main_v6 (ix1 n)) = ix2 n (0 : Fin 2) := by
  funext a; apply Fin.ext
  match a with
  | ⟨0, _⟩ => show n.val / 1 = n.val; omega
  | ⟨1, _⟩ => rfl

/-- Column 1, flattened, read at n is the array at (n, 1). -/
theorem col1 (n : Fin 8388608) : idx_main_v11 (idx_main_v12 (ix1 n)) = ix2 n (1 : Fin 2) := by
  funext a; apply Fin.ext
  match a with
  | ⟨0, _⟩ => show n.val / 1 = n.val; omega
  | ⟨1, _⟩ => rfl

/-- The first grid coordinate of point n. -/
theorem first_apply (x0 : (⟨S8388608x2, .f32⟩ : BufTy).Contents (Elt F)) (n : Fin 8388608) :
    val_main_v20 (F := F) x0 (ix1 n) = axisCellHost 0xC3340000#32 0x43B40000#32 (snapHost (x0 (ix2 n (0 : Fin 2)))) := by
  simp only [
    val_main_v5_apply, val_main_v6_apply, val_main_cst_1_apply, val_main_v7_apply, val_main_v8_apply,
    val_main_cst_2_apply, val_main_v9_apply, val_main_v10_apply, val_main_v11_apply, val_main_v12_apply,
    val_main_cst_3_apply, val_main_v13_apply, val_main_v14_apply, val_main_cst_4_apply, val_main_v15_apply,
    val_main_v16_apply, val_main_cst_5_apply, val_main_v17_apply, val_main_v18_apply, val_main_v19_apply,
    val_main_c_apply, val_main_c_6_apply, val_main_call1_v0_apply, val_main_call1_v1_apply, val_main_call1_v2_apply,
    val_main_call1_v3_apply, val_main_call1_v4_apply, val_main_v20_apply, val_main_cst_7_apply, val_main_v21_apply,
    val_main_v22_apply, val_main_v23_apply, val_main_c_8_apply, val_main_c_9_apply, val_main_call2_v0_apply,
    val_main_call2_v1_apply, val_main_call2_v2_apply, val_main_call2_v3_apply, val_main_call2_v4_apply,
    val_main_v24_apply]
  rw [col0, snapped_apply]
  rfl

/-- The second grid coordinate of point n. -/
theorem second_apply (x0 : (⟨S8388608x2, .f32⟩ : BufTy).Contents (Elt F)) (n : Fin 8388608) :
    val_main_v24 (F := F) x0 (ix1 n) = axisCellHost 0xC2B40000#32 0x43340000#32 (snapHost (x0 (ix2 n (1 : Fin 2)))) := by
  simp only [
    val_main_v5_apply, val_main_v6_apply, val_main_cst_1_apply, val_main_v7_apply, val_main_v8_apply,
    val_main_cst_2_apply, val_main_v9_apply, val_main_v10_apply, val_main_v11_apply, val_main_v12_apply,
    val_main_cst_3_apply, val_main_v13_apply, val_main_v14_apply, val_main_cst_4_apply, val_main_v15_apply,
    val_main_v16_apply, val_main_cst_5_apply, val_main_v17_apply, val_main_v18_apply, val_main_v19_apply,
    val_main_c_apply, val_main_c_6_apply, val_main_call1_v0_apply, val_main_call1_v1_apply, val_main_call1_v2_apply,
    val_main_call1_v3_apply, val_main_call1_v4_apply, val_main_v20_apply, val_main_cst_7_apply, val_main_v21_apply,
    val_main_v22_apply, val_main_v23_apply, val_main_c_8_apply, val_main_c_9_apply, val_main_call2_v0_apply,
    val_main_call2_v1_apply, val_main_call2_v2_apply, val_main_call2_v3_apply, val_main_call2_v4_apply,
    val_main_v24_apply]
  rw [col1, snapped_apply]
  rfl

/-- The eighteen host operations after the two grid coordinates are their Z-order number. -/
theorem interleaved_apply (x0 : (⟨S8388608x2, .f32⟩ : BufTy).Contents (Elt F)) (i : S8388608.Idx) :
    val_main_v151 (F := F) x0 i = zorder .host (val_main_v20 (F := F) x0 i) (val_main_v24 (F := F) x0 i) := by
  simp only [
    val_main_c_10_apply, val_main_v25_apply, val_main_c_11_apply, val_main_v26_apply, val_main_v27_apply,
    val_main_c_12_apply, val_main_v28_apply, val_main_v29_apply, val_main_c_13_apply, val_main_v30_apply,
    val_main_v31_apply, val_main_v32_apply, val_main_c_14_apply, val_main_v33_apply, val_main_v34_apply,
    val_main_c_15_apply, val_main_v35_apply, val_main_v36_apply, val_main_c_16_apply, val_main_v37_apply,
    val_main_v38_apply, val_main_v39_apply, val_main_c_17_apply, val_main_v40_apply, val_main_v41_apply,
    val_main_c_18_apply, val_main_v42_apply, val_main_v43_apply, val_main_c_19_apply, val_main_v44_apply,
    val_main_v45_apply, val_main_v46_apply, val_main_c_20_apply, val_main_v47_apply, val_main_v48_apply,
    val_main_c_21_apply, val_main_v49_apply, val_main_v50_apply, val_main_c_22_apply, val_main_v51_apply,
    val_main_v52_apply, val_main_v53_apply, val_main_c_23_apply, val_main_v54_apply, val_main_v55_apply,
    val_main_c_24_apply, val_main_v56_apply, val_main_v57_apply, val_main_c_25_apply, val_main_v58_apply,
    val_main_v59_apply, val_main_v60_apply, val_main_c_26_apply, val_main_v61_apply, val_main_v62_apply,
    val_main_c_27_apply, val_main_v63_apply, val_main_v64_apply, val_main_c_28_apply, val_main_v65_apply,
    val_main_v66_apply, val_main_v67_apply, val_main_c_29_apply, val_main_v68_apply, val_main_v69_apply,
    val_main_c_30_apply, val_main_v70_apply, val_main_v71_apply, val_main_c_31_apply, val_main_v72_apply,
    val_main_v73_apply, val_main_v74_apply, val_main_c_32_apply, val_main_v75_apply, val_main_v76_apply,
    val_main_c_33_apply, val_main_v77_apply, val_main_v78_apply, val_main_c_34_apply, val_main_v79_apply,
    val_main_v80_apply, val_main_v81_apply, val_main_c_35_apply, val_main_v82_apply, val_main_v83_apply,
    val_main_c_36_apply, val_main_v84_apply, val_main_v85_apply, val_main_c_37_apply, val_main_v86_apply,
    val_main_v87_apply, val_main_v88_apply, val_main_c_38_apply, val_main_v89_apply, val_main_v90_apply,
    val_main_c_39_apply, val_main_v91_apply, val_main_v92_apply, val_main_c_40_apply, val_main_v93_apply,
    val_main_v94_apply, val_main_v95_apply, val_main_c_41_apply, val_main_v96_apply, val_main_v97_apply,
    val_main_c_42_apply, val_main_v98_apply, val_main_v99_apply, val_main_c_43_apply, val_main_v100_apply,
    val_main_v101_apply, val_main_v102_apply, val_main_c_44_apply, val_main_v103_apply, val_main_v104_apply,
    val_main_c_45_apply, val_main_v105_apply, val_main_v106_apply, val_main_c_46_apply, val_main_v107_apply,
    val_main_v108_apply, val_main_v109_apply, val_main_c_47_apply, val_main_v110_apply, val_main_v111_apply,
    val_main_c_48_apply, val_main_v112_apply, val_main_v113_apply, val_main_c_49_apply, val_main_v114_apply,
    val_main_v115_apply, val_main_v116_apply, val_main_c_50_apply, val_main_v117_apply, val_main_v118_apply,
    val_main_c_51_apply, val_main_v119_apply, val_main_v120_apply, val_main_c_52_apply, val_main_v121_apply,
    val_main_v122_apply, val_main_v123_apply, val_main_c_53_apply, val_main_v124_apply, val_main_v125_apply,
    val_main_c_54_apply, val_main_v126_apply, val_main_v127_apply, val_main_c_55_apply, val_main_v128_apply,
    val_main_v129_apply, val_main_v130_apply, val_main_c_56_apply, val_main_v131_apply, val_main_v132_apply,
    val_main_c_57_apply, val_main_v133_apply, val_main_v134_apply, val_main_c_58_apply, val_main_v135_apply,
    val_main_v136_apply, val_main_v137_apply, val_main_c_59_apply, val_main_v138_apply, val_main_v139_apply,
    val_main_c_60_apply, val_main_v140_apply, val_main_v141_apply, val_main_c_61_apply, val_main_v142_apply,
    val_main_v143_apply, val_main_v144_apply, val_main_c_62_apply, val_main_v145_apply, val_main_v146_apply,
    val_main_c_63_apply, val_main_v147_apply, val_main_v148_apply, val_main_c_64_apply, val_main_v149_apply,
    val_main_v150_apply, val_main_v151_apply]
  rfl

/-- Entry n of the reference's cell-number array is the cell number of the point (x(n, 0), x(n, 1)). -/
theorem cells_apply (x0 : (⟨S8388608x2, .f32⟩ : BufTy).Contents (Elt F)) (n : Fin 8388608) :
    val_main_v151 (F := F) x0 (ix1 n) = cellOfHost (x0 (ix2 n (0 : Fin 2))) (x0 (ix2 n (1 : Fin 2))) := by
  rw [interleaved_apply, first_apply, second_apply]
  rfl

end Cert.ReferenceIdeal.Cells

end
-- ==== Proof.SameFunction.lean ====
/-
  The two programs compute one function.

  Both end with the same lookup-and-combine stretch applied to their cell numbers, so it is enough that the
  cell numbers agree: the kernel program numbers the columns of the transposed coordinate array, the reference
  the rows of the array itself, and column n of the transpose is row n; on the extended reals the host's
  rounding and quotient are the vector unit's, and the bit interleaving does not depend on the unit.
-/
import proofs.«169504_j3762391351408_2_alg».proof.Proof.Gen.ReferenceIdeal.Read
import proofs.«169504_j3762391351408_2_alg».proof.Proof.RefCells
import proofs.«169504_j3762391351408_2_alg».proof.Proof.CellRegion
import proofs.«169504_j3762391351408_2_alg».proof.Proof.Lookup
import proofs.«169504_j3762391351408_2_alg».proof.Proof.QuadCell
import Idealize.ShloMosaic.Lib.Pipeline.Value
import Idealize.ShloMosaic.Lib.ValueIdx

set_option maxRecDepth 16384

noncomputable section

namespace Cert.SameFunction

open Idealize.ShloMosaic Idealize.ShloMosaic.ValueIdx
open Cert.QuadCell

/-- The reference's result is the shared lookup-and-combine stretch of its own cell numbers: the same
    operations in the same order, written in the reference's vocabulary. -/
theorem reference_pooled {F : FTy → Type} [FloatOps F]
    (x0 : (⟨Cert.ReferenceIdeal.S8388608x2, .f32⟩ : BufTy).Contents (Elt F)) (x1 : (⟨Cert.ReferenceIdeal.S8388608, .f32⟩ : BufTy).Contents (Elt F))
    (x2 x3 : (⟨Cert.ReferenceIdeal.S262144, .f32⟩ : BufTy).Contents (Elt F)) :
    Cert.ReferenceIdeal.Read.val_main_v167 (F := F) x0 x1 x2 x3
      = Cert.KernelIdeal.Lookup.pooled (F := F) (Cert.ReferenceIdeal.Read.val_main_v151 (F := F) x0) x1 x2 x3 := rfl

/-- Entry (r, n) of the transposed coordinates is entry (n, r) of the coordinates. -/
theorem transposed_apply (a : Cert.KernelIdeal.S8388608x2.Idx → Elt Ideal .f32)
    (h : Cert.KernelIdeal.S8388608x2.Transposes [1, 0] Cert.KernelIdeal.S2x8388608) (r : Fin 2) (n : Fin 8388608) :
    transpose Cert.KernelIdeal.S2x8388608 [1, 0] a h (ix2 r n) = a (ix2 n r) :=
  transpose_apply [1, 0] a h (ix2 r n) (ix2 n r) (fun b => match b with | ⟨0, _⟩ => rfl | ⟨1, _⟩ => rfl)

/-- Entry n of the reference's cell numbers, on the extended reals, in the vector unit's spelling. -/
theorem reference_cell (a : Cert.KernelIdeal.S8388608x2.Idx → Elt Ideal .f32) (n : Fin 8388608) :
    Cert.ReferenceIdeal.Read.val_main_v151 (F := Ideal) a (ix1 n)
      = cellOf (F := Ideal) (a (ix2 n (0 : Fin 2))) (a (ix2 n (1 : Fin 2))) := by
  rw [Cert.ReferenceIdeal.Cells.cells_apply, cellOfHost_eq]

/-- The kernel program's cell numbers, those of the columns of the transposed coordinates, are the
    reference's, those of the rows of the coordinates. -/
theorem cells_agree (a : Cert.KernelIdeal.S8388608x2.Idx → Elt Ideal .f32)
    (h : Cert.KernelIdeal.S8388608x2.Transposes [1, 0] Cert.KernelIdeal.S2x8388608) :
    Cert.KernelIdeal.CellRegion.cells (F := Ideal) (transpose Cert.KernelIdeal.S2x8388608 [1, 0] a h)
      = Cert.ReferenceIdeal.Read.val_main_v151 (F := Ideal) a := by
  funext i
  obtain ⟨n, rfl⟩ : ∃ n : Fin 8388608, i = ix1 n := ⟨i 0, eq_ix1 i⟩
  rw [reference_cell]
  show cellOf (F := Ideal) (transpose Cert.KernelIdeal.S2x8388608 [1, 0] a h (ix2 (0 : Fin 2) n))
      (transpose Cert.KernelIdeal.S2x8388608 [1, 0] a h (ix2 (1 : Fin 2) n)) = _
  rw [transposed_apply, transposed_apply]

end Cert.SameFunction

end
-- ==== Proof.lean ====
/-
  The kernel program and the reference compute the same pooled values.

  For each of 8388608 points (a, b) both programs find the point's quadtree cell — the coordinates snapped to
  seven decimals, placed on a 512 × 512 grid over [-180, 180) × [-90, 90), the two grid coordinates' bits
  interleaved in Z-order —, read a weight and a bias at that cell, and return weight · x + bias. The reference
  does all of it on whole arrays. The kernel program transposes the coordinates, numbers the cells in a first
  region of 128 blocks of 65536 points, gathers on the host, and combines in a second region of 64 blocks of
  131072 points.

  The three frames are the generated ones (the reference's is its generated run with the result dropped); the
  idealization rewrote nothing, so `preserves` is trivial. For `algebraic`: the kernel program's run ends with
  the result buffer at the lookup-and-combine stretch of the cell numbers of the transposed coordinates
  (Proof/KernelResult.lean, over the two regions read as whole arrays in Proof/CellRegion.lean and
  Proof/Combine.lean); the reference's run ends at the same stretch of its own cell numbers; and the two
  cell-number arrays are equal entry by entry (Proof/SameFunction.lean), because column n of the transpose is
  row n, the host's rounding and quotient are the exact ones the vector unit's are, and shifts by less than
  the word width are the same on both units. No step needs the inputs to be finite.
-/
import proofs.«169504_j3762391351408_2_alg».proof.Defs
import proofs.«169504_j3762391351408_2_alg».proof.Proof.Gen.Kernel
import proofs.«169504_j3762391351408_2_alg».proof.Proof.Gen.Kernel.Frame
import proofs.«169504_j3762391351408_2_alg».proof.Proof.Gen.KernelIdeal
import proofs.«169504_j3762391351408_2_alg».proof.Proof.Gen.KernelIdeal.Frame
import proofs.«169504_j3762391351408_2_alg».proof.Proof.Gen.ReferenceIdeal
import proofs.«169504_j3762391351408_2_alg».proof.Proof.Gen.Pre_finite_inputs
import proofs.«169504_j3762391351408_2_alg».proof.Proof.Gen.ReferenceIdeal.Run
import proofs.«169504_j3762391351408_2_alg».proof.Proof.Gen.ReferenceIdeal.Read
import proofs.«169504_j3762391351408_2_alg».proof.Proof.KernelResult
import proofs.«169504_j3762391351408_2_alg».proof.Proof.SameFunction
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at weight[cell] · x + bias[cell], the cells those of the kernel program's
    transposed coordinates; the reference's own cells are the same numbers. -/
theorem algebraic : Cert.algebraic_KernelIdeal_ReferenceIdeal := by
  intro m ρ m' ρ' _ hagree
  refine ⟨_, (θ_run Cert.KernelIdeal.defs _ _).mono (fun r h c =>
      ⟨(h c _ (Cert.KernelIdeal.Gen.mem_uc Cert.KernelIdeal.main_v16 (by decide))).trans (Cert.KernelIdeal.Result.result_eq m ρ c),
       (h c _ (Cert.KernelIdeal.Gen.mem_uc Cert.KernelIdeal.main_arg0 (by decide))).trans (Cert.KernelIdeal.Gen.W4_main_arg0 m ρ c),
       (h c _ (Cert.KernelIdeal.Gen.mem_uc Cert.KernelIdeal.main_arg1 (by decide))).trans (Cert.KernelIdeal.Gen.W4_main_arg1 m ρ c),
       (h c _ (Cert.KernelIdeal.Gen.mem_uc Cert.KernelIdeal.main_arg2 (by decide))).trans (Cert.KernelIdeal.Gen.W4_main_arg2 m ρ c),
       (h c _ (Cert.KernelIdeal.Gen.mem_uc Cert.KernelIdeal.main_arg3 (by decide))).trans (Cert.KernelIdeal.Gen.W4_main_arg3 m ρ c)⟩)
      (Cert.KernelIdeal.Result.run_buffers (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v167_eq, Cert.SameFunction.reference_pooled,
    (hagree c).1, (hagree c).2.1, (hagree c).2.2.1, (hagree c).2.2.2]
  exact congrArg (fun cells => Cert.KernelIdeal.Lookup.pooled (F := Ideal) cells _ _ _)
    (Cert.SameFunction.cells_agree _ _).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
